-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x1x100 : Shape := ⟨4, ![4096, 64, 1, 100]⟩
abbrev S100x100 : Shape := ⟨2, ![100, 100]⟩
abbrev S100 : Shape := ⟨1, ![100]⟩
abbrev S_ : Shape := ⟨0, ![]⟩

class Facts : Prop where
  bcast_S_S4096x64x1x100 : S_.BroadcastsInDim S4096x64x1x100 (![] : Fin 0 → Fin S4096x64x1x100.rank)
  reducesTo_S4096x64x1x100_S_d0_1_2_3 : S4096x64x1x100.ReducesTo [0, 1, 2, 3] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  main_v18

def fn {F : FTy → Type} [FloatOps F] (main_arg0 : FVec F S4096x64x1x100 .f32) (main_arg1 : FVec F S100x100 .f32) (main_arg2 : FVec F S100 .f32) (main_arg3 : FVec F S100x100 .f32) : IVec S_ 1 :=
  let main_v0 : FVec F S4096x64x1x100 .f32 := Host.absf main_arg0
  let main_cst : FVec F S_ .f32 := constant S_ .f32 0x7F800000#32
  let main_v1 : FVec F S4096x64x1x100 .f32 := broadcastInDim S4096x64x1x100 ![] bcast_S_S4096x64x1x100 main_cst
  let main_v2 : IVec S4096x64x1x100 1 := cmpf .olt main_v0 main_v1
  let main_c : IVec S_ 1 := constantI S_ 1 1#1
  let main_v3 : IVec S_ 1 := (fun x v => Host.reduce IntOp.andi x v reducesTo_S4096x64x1x100_S_d0_1_2_3 h_S_) main_v2 main_c
  let main_v4 : FVec F S100x100 .f32 := Host.absf main_arg1
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg3
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_v13 main_v16
-- ==== Kernel.lean ====
abbrev S4096x64x1x100 : Shape := ⟨4, ![4096, 64, 1, 100]⟩
abbrev S100x100 : Shape := ⟨2, ![100, 100]⟩
abbrev S100 : Shape := ⟨1, ![100]⟩
abbrev S262144x100 : Shape := ⟨2, ![262144, 100]⟩
abbrev S1x100 : Shape := ⟨2, ![1, 100]⟩
abbrev S16384x100 : Shape := ⟨2, ![16384, 100]⟩

abbrev nBuf : Space → Nat
  | .hbm => 11
  | .vmem => 6
  | .smem => 0
  | _ => 0

abbrev bufTy : (tb : Table) → Fin (tcTables nBuf tb) → BufTy
  | .hbm, ⟨0, _⟩ => ⟨S4096x64x1x100, .f32⟩
  | .hbm, ⟨1, _⟩ => ⟨S100x100, .f32⟩
  | .hbm, ⟨2, _⟩ => ⟨S100, .f32⟩
  | .hbm, ⟨3, _⟩ => ⟨S100x100, .f32⟩
  | .hbm, ⟨4, _⟩ => ⟨S262144x100, .f32⟩
  | .hbm, ⟨5, _⟩ => ⟨S100x100, .f32⟩
  | .hbm, ⟨6, _⟩ => ⟨S100x100, .f32⟩
  | .hbm, ⟨7, _⟩ => ⟨S1x100, .f32⟩
  | .hbm, ⟨8, _⟩ => ⟨S1x100, .f32⟩
  | .hbm, ⟨9, _⟩ => ⟨S262144x100, .f32⟩
  | .hbm, ⟨10, _⟩ => ⟨S4096x64x1x100, .f32⟩
  | .local _ .vmem, ⟨0, _⟩ => ⟨S16384x100, .f32⟩
  | .local _ .vmem, ⟨1, _⟩ => ⟨S16384x100, .f32⟩
  | .local _ .vmem, ⟨2, _⟩ => ⟨S100x100, .f32⟩
  | .local _ .vmem, ⟨3, _⟩ => ⟨S1x100, .f32⟩
  | .local _ .vmem, ⟨4, _⟩ => ⟨S16384x100, .f32⟩
  | .local _ .vmem, ⟨5, _⟩ => ⟨S16384x100, .f32⟩
  | _, _ => ⟨S4096x64x1x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x64x1x100_S262144x100 : S4096x64x1x100.ShapeCasts S262144x100
  transposes_S100x100_S100x100_1_0 : S100x100.Transposes [1, 0] S100x100
  shapeCasts_S100_S1x100 : S100.ShapeCasts S1x100
  shapeCasts_S262144x100_S4096x64x1x100 : S262144x100.ShapeCasts S4096x64x1x100
  inb_S16384x100_S16384x100_0_0 : ∀ a, (![0, 0] : Fin 2 → Nat) a + S16384x100.size a ≤ S16384x100.size a
  h_S16384x100 : 0 < S16384x100.numel
  shapeCasts_S16384x100_S16384x100 : S16384x100.ShapeCasts S16384x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S16384x100 : S1x100.Broadcasts S16384x100
  dot_S100x100_S100x100_S100x100_1_0_0_1_n_n_wf : DotDims.WF S100x100 S100x100 S100x100 [1] [0] [0] [1] [] []
  dot_S1x100_S100x100_S1x100_1_0_0_1_n_n_wf : DotDims.WF S1x100 S100x100 S1x100 [1] [0] [0] [1] [] []
  dot_S16384x100_S100x100_S16384x100_1_0_0_1_n_n_wf : DotDims.WF S16384x100 S100x100 S16384x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x100.size a ≤ S262144x100.size a
  hwx0_0 : ∀ i : grid0.Coords, EltTy.bits .f32 = 32 ∨ (Rect.block (s := S262144x100) S16384x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x100.size a ≤ S262144x100.size a
  hwx0_3 : ∀ i : grid0.Coords, EltTy.bits .f32 = 32 ∨ (Rect.block (s := S262144x100) S16384x100.size (cc0_transform_3 i) (hinb0_3 i)).WholeWords (EltTy.packing .f32)

variable [Facts₀]

def dot_S100x100_S100x100_S100x100_1_0_0_1_n_n : DotDims S100x100 S100x100 S100x100 where
  lhsContracting := [1]
  rhsContracting := [0]
  lhsNonContracting := [0]
  rhsNonContracting := [1]
  lhsBatch := []
  rhsBatch := []
  wf := dot_S100x100_S100x100_S100x100_1_0_0_1_n_n_wf
def dot_S1x100_S100x100_S1x100_1_0_0_1_n_n : DotDims S1x100 S100x100 S1x100 where
  lhsContracting := [1]
  rhsContracting := [0]
  lhsNonContracting := [0]
  rhsNonContracting := [1]
  lhsBatch := []
  rhsBatch := []
  wf := dot_S1x100_S100x100_S1x100_1_0_0_1_n_n_wf
def dot_S16384x100_S100x100_S16384x100_1_0_0_1_n_n : DotDims S16384x100 S100x100 S16384x100 where
  lhsContracting := [1]
  rhsContracting := [0]
  lhsNonContracting := [0]
  rhsNonContracting := [1]
  lhsBatch := []
  rhsBatch := []
  wf := dot_S16384x100_S100x100_S16384x100_1_0_0_1_n_n_wf

abbrev win0_0 : Pipeline.Window sig grid0 :=
  Pipeline.Window.ofSpec (Memref.whole main_call0_v0) S16384x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S16384x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64x1x100 : Shape := ⟨4, ![4096, 64, 1, 100]⟩
abbrev S100x100 : Shape := ⟨2, ![100, 100]⟩
abbrev S100 : Shape := ⟨1, ![100]⟩
abbrev S1x1x1x100 : Shape := ⟨4, ![1, 1, 1, 100]⟩

abbrev nBuf : Space → Nat
  | .hbm => 9
  | .vmem => 0
  | .smem => 0
  | _ => 0

abbrev bufTy : (tb : Table) → Fin (tcTables nBuf tb) → BufTy
  | .hbm, ⟨0, _⟩ => ⟨S4096x64x1x100, .f32⟩
  | .hbm, ⟨1, _⟩ => ⟨S100x100, .f32⟩
  | .hbm, ⟨2, _⟩ => ⟨S100, .f32⟩
  | .hbm, ⟨3, _⟩ => ⟨S100x100, .f32⟩
  | .hbm, ⟨4, _⟩ => ⟨S4096x64x1x100, .f32⟩
  | .hbm, ⟨5, _⟩ => ⟨S1x1x1x100, .f32⟩
  | .hbm, ⟨6, _⟩ => ⟨S4096x64x1x100, .f32⟩
  | .hbm, ⟨7, _⟩ => ⟨S4096x64x1x100, .f32⟩
  | .hbm, ⟨8, _⟩ => ⟨S4096x64x1x100, .f32⟩
  | _, _ => ⟨S4096x64x1x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S100_S1x1x1x100_3 : S100.BroadcastsInDim S1x1x1x100 (![3] : Fin 1 → Fin S1x1x1x100.rank)
  bcast_S1x1x1x100_S4096x64x1x100_0_1_2_3 : S1x1x1x100.BroadcastsInDim S4096x64x1x100 (![0, 1, 2, 3] : Fin 4 → Fin S4096x64x1x100.rank)
  dot_S4096x64x1x100_S100x100_S4096x64x1x100_3_1_012_0_n_n_wf : DotDims.WF S4096x64x1x100 S100x100 S4096x64x1x100 [3] [1] [0, 1, 2] [0] [] []
  dot_S4096x64x1x100_S100x100_S4096x64x1x100_3_0_012_1_n_n_wf : DotDims.WF S4096x64x1x100 S100x100 S4096x64x1x100 [3] [0] [0, 1, 2] [1] [] []

variable [Facts₀]

def dot_S4096x64x1x100_S100x100_S4096x64x1x100_3_1_012_0_n_n : DotDims S4096x64x1x100 S100x100 S4096x64x1x100 where
  lhsContracting := [3]
  rhsContracting := [1]
  lhsNonContracting := [0, 1, 2]
  rhsNonContracting := [0]
  lhsBatch := []
  rhsBatch := []
  wf := dot_S4096x64x1x100_S100x100_S4096x64x1x100_3_1_012_0_n_n_wf
def dot_S4096x64x1x100_S100x100_S4096x64x1x100_3_0_012_1_n_n : DotDims S4096x64x1x100 S100x100 S4096x64x1x100 where
  lhsContracting := [3]
  rhsContracting := [0]
  lhsNonContracting := [0, 1, 2]
  rhsNonContracting := [1]
  lhsBatch := []
  rhsBatch := []
  wf := dot_S4096x64x1x100_S100x100_S4096x64x1x100_3_0_012_1_n_n_wf

class Facts : Prop extends Facts₀ where

variable [Facts]
-- ==== Proof.AffineFold.lean ====
/-
  Two chained linear maps folded into one affine map.

  A row x of length 100 is sent through a linear layer, y_d = Σ_k x_k · W(d, k) + b_d, and the result through a
  second matrix, out_e = Σ_d y_d · S(d, e).  Multiplying out,

      out_e = Σ_k x_k · (Σ_d W(d, k) · S(d, e)) + Σ_d b_d · S(d, e),

  one affine map with the folded weight M = Wᵀ·S and the folded bias c = b·S.  The identity uses distributivity and an
  exchange of the two sums, so on the extended reals it needs every entry finite: with an infinite entry a product
  0 · ∞ or a sum ∞ − ∞ can appear on one side only.  This module states both arrangements over the arrays
  x : [4096, 64, 1, 100], W, S : [100, 100], b : [100], index by index, and proves them equal when all entries are reals.
-/
import Idealize.ShloMosaic.PureOps.Ideal
import Idealize.ShloMosaic.Lib.ValueIdx

noncomputable section

namespace Cert.AffineFold

open Idealize.ShloMosaic Idealize.ShloMosaic.ValueIdx

/-! ## The law over finite index types -/

/-- A finite sum of reals, read in the extended reals, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Σ_d (Σ_k x_k·W(d,k) + b_d)·s_d = Σ_k x_k·(Σ_d W(d,k)·s_d) + Σ_d b_d·s_d for real entries, computed in the extended reals. -/
theorem chain_eq_fold {K D : Type*} [Fintype K] [Fintype D] (x : K → ℝ) (W : D → K → ℝ) (b s : D → ℝ) :
    (∑ d, ((∑ k, (x k : EReal) * (W d k : EReal)) + (b d : EReal)) * (s d : EReal))
      = (∑ k, (x k : EReal) * ∑ d, (W d k : EReal) * (s d : EReal)) + ∑ d, (b d : EReal) * (s d : EReal) := by
  simp only [← EReal.coe_mul, ← coe_sum, ← EReal.coe_add]
  refine congrArg _ ?_
  simp only [add_mul, Finset.sum_add_distrib, Finset.sum_mul, Finset.mul_sum]
  refine congrArg (· + _) ?_
  rw [Finset.sum_comm]
  exact Finset.sum_congr rfl fun k _ => Finset.sum_congr rfl fun d _ => by ring

/-! ## The two arrangements over the arrays -/

abbrev SX : Shape := ⟨4, ![4096, 64, 1, 100]⟩
abbrev SM : Shape := ⟨2, ![100, 100]⟩
abbrev SB : Shape := ⟨1, ![100]⟩

/-- The folded weight M(k, e) = Σ_d W(d, k) · S(d, e). -/
def foldedWeight (W S : SM.Idx → EReal) (k e : Fin 100) : EReal := ∑ d : Fin 100, W (ix2 d k) * S (ix2 d e)

/-- The folded bias c(e) = Σ_d b(d) · S(d, e). -/
def foldedBias (b : SB.Idx → EReal) (S : SM.Idx → EReal) (e : Fin 100) : EReal := ∑ d : Fin 100, b (ix1 d) * S (ix2 d e)

/-- One affine map: row (p, q, u) of x times the folded weight, plus the folded bias. -/
def foldedAt (x : SX.Idx → EReal) (W : SM.Idx → EReal) (b : SB.Idx → EReal) (S : SM.Idx → EReal)
    (p : Fin 4096) (q : Fin 64) (u : Fin 1) (e : Fin 100) : EReal :=
  (∑ k : Fin 100, x (ix4 p q u k) * foldedWeight W S k e) + foldedBias b S e

/-- Two maps in a chain: the linear layer of row (p, q, u), then the second matrix. -/
def chainedAt (x : SX.Idx → EReal) (W : SM.Idx → EReal) (b : SB.Idx → EReal) (S : SM.Idx → EReal)
    (p : Fin 4096) (q : Fin 64) (u : Fin 1) (e : Fin 100) : EReal :=
  ∑ d : Fin 100, ((∑ k : Fin 100, x (ix4 p q u k) * W (ix2 d k)) + b (ix1 d)) * S (ix2 d e)

/-- The folded arrangement as an array. -/
def folded (x : SX.Idx → EReal) (W : SM.Idx → EReal) (b : SB.Idx → EReal) (S : SM.Idx → EReal) : SX.Idx → EReal :=
  fun i => foldedAt x W b S (i 0) (i 1) (i 2) (i 3)

/-- The chained arrangement as an array. -/
def chained (x : SX.Idx → EReal) (W : SM.Idx → EReal) (b : SB.Idx → EReal) (S : SM.Idx → EReal) : SX.Idx → EReal :=
  fun i => chainedAt x W b S (i 0) (i 1) (i 2) (i 3)

/-- With every entry a real, the two arrangements agree at every index. -/
theorem chained_eq_folded (x : SX.Idx → EReal) (W : SM.Idx → EReal) (b : SB.Idx → EReal) (S : SM.Idx → EReal)
    (hx : ∀ i, ∃ r : ℝ, x i = (r : EReal)) (hW : ∀ i, ∃ r : ℝ, W i = (r : EReal))
    (hb : ∀ i, ∃ r : ℝ, b i = (r : EReal)) (hS : ∀ i, ∃ r : ℝ, S i = (r : EReal)) :
    chained x W b S = folded x W b S := by
  choose x' hx' using hx
  choose W' hW' using hW
  choose b' hb' using hb
  choose S' hS' using hS
  funext i
  unfold chained folded chainedAt foldedAt foldedWeight foldedBias
  simp only [hx', hW', hb', hS']
  exact chain_eq_fold (fun k => x' (ix4 (i 0) (i 1) (i 2) k)) (fun d k => W' (ix2 d k)) (fun d => b' (ix1 d))
    (fun d => S' (ix2 d (i 3)))

end Cert.AffineFold

end
-- ==== Proof.FiniteEntries.lean ====
/-
  The precondition read back: every entry of every input is a real.

  The precondition compares the absolute value of each entry with +∞ and conjoins the comparisons over each array and
  over the four arrays.  On the extended reals |x| = max x (−x) is below +∞ exactly when x is neither infinity, that is,
  when x is a real number.
-/
import proofs.«112103_j19963007991948_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.FiniteEntries

open Idealize.ShloMosaic Idealize.ShloMosaic.ValueIdx Cert.Pre_finite_inputs

/-- An extended real whose absolute value is below +∞ is a real. -/
theorem real_of_abs_lt (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

instance : Subsingleton S_.Idx := ⟨fun a b => funext fun d => d.elim0⟩

variable [Facts]

/-- Under the precondition every entry of the four inputs is a real. -/
theorem reals_of_pre (a0 : FVec Ideal S4096x64x1x100 .f32) (a1 : FVec Ideal S100x100 .f32) (a2 : FVec Ideal S100 .f32)
    (a3 : FVec Ideal S100x100 .f32) (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

end Cert.FiniteEntries

end
-- ==== Proof.RefSide.lean ====
/-
  The reference computes the chained arrangement.

  Its five operations are a contraction of x with W over W's second axis, the bias b broadcast over the leading axes and
  added, and a contraction of the sum with S over S's first axis.  Read at an index (p, q, u, e) this is
  Σ_d (Σ_k x(p, q, u, k) · W(d, k) + b(d)) · S(d, e).
-/
import proofs.«112103_j19963007991948_2_alg».proof.Proof.Gen.ReferenceIdeal.Run
import proofs.«112103_j19963007991948_2_alg».proof.Proof.Gen.ReferenceIdeal.Read
import proofs.«112103_j19963007991948_2_alg».proof.Proof.AffineFold

noncomputable section

namespace Cert.RefSide

open Idealize.ShloMosaic Idealize.ShloMosaic.ValueIdx Cert.ReferenceIdeal Cert.ReferenceIdeal.Read

/-- The reference's result, as a function of its four argument arrays, is the chained arrangement. -/
theorem result_eq_chained (x0 : (⟨S4096x64x1x100, .f32⟩ : BufTy).Contents (Elt Ideal))
    (x1 : (⟨S100x100, .f32⟩ : BufTy).Contents (Elt Ideal)) (x2 : (⟨S100, .f32⟩ : BufTy).Contents (Elt Ideal))
    (x3 : (⟨S100x100, .f32⟩ : BufTy).Contents (Elt Ideal)) :
    val_main_v4 (F := Ideal) x0 x1 x2 x3 = Cert.AffineFold.chained x0 x1 x2 x3 := by
  funext i
  rw [val_main_v4_apply]
  unfold Cert.AffineFold.chained Cert.AffineFold.chainedAt
  refine Finset.sum_congr rfl fun d _ => ?_
  rw [val_main_v3_apply, val_main_v0_apply, val_main_v2_apply, val_main_v1_apply]
  have e1 : ∀ k : Fin 100, lidx_main_v0 (lidx_main_v4 i d) k = ix4 (i 0) (i 1) (i 2) k := fun k =>
    funext fun a => Fin.ext (by match a with | ⟨0, _⟩ => rfl | ⟨1, _⟩ => rfl | ⟨2, _⟩ => rfl | ⟨3, _⟩ => rfl)
  have e2 : ∀ k : Fin 100, ridx_main_v0 (lidx_main_v4 i d) k = ix2 d k := fun k =>
    funext fun a => Fin.ext (by match a with | ⟨0, _⟩ => rfl | ⟨1, _⟩ => rfl)
  have e3 : idx_main_v1 (idx_main_v2 (lidx_main_v4 i d)) = ix1 d :=
    funext fun a => Fin.ext (by match a with | ⟨0, _⟩ => rfl)
  have e4 : ridx_main_v4 i d = ix2 d (i 3) :=
    funext fun a => Fin.ext (by match a with | ⟨0, _⟩ => rfl | ⟨1, _⟩ => rfl)
  simp only [e1, e2, e3, e4]
  rfl

end Cert.RefSide

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.KernelBlock.lean ====
/-
  One block of the kernel, index by index.

  The body multiplies a block of 16384 rows by the folded weight into a zero accumulator and adds the folded bias, one
  row repeated over the block.  At row r and column c of the block this is Σ_k x(r, k) · M(k, c) + c₀(0, c); the
  roundings to a narrower format on the way into the product are the identity on the extended reals.
-/
import proofs.«112103_j19963007991948_2_alg».proof.Proof.Gen.KernelIdeal.Skeleton
import proofs.«112103_j19963007991948_2_alg».proof.Proof.LibRowOps
import Idealize.ShloMosaic.Lib.ValueLayout
import Idealize.ShloMosaic.Lib.Pipeline.Value

noncomputable section

namespace Cert.KernelBlock

open Idealize.ShloMosaic Idealize.ShloMosaic.ValueIdx Cert.KernelIdeal Cert.KernelIdeal.Gen

/-- The block product's dimension numbers are those of a plain [16384, 100] × [100, 100] product. -/
theorem plain : Cert.RowOps.IsPlain dot_S16384x100_S100x100_S16384x100_1_0_0_1_n_n := ⟨rfl, rfl, rfl, rfl, rfl, rfl⟩

/-- What the body stores, at row r and column c of the block. -/
theorem stored_apply (x0 : Vec Ideal S16384x100 .f32) (x1 : Vec Ideal S100x100 .f32) (x2 : Vec Ideal S1x100 .f32)
    (r : Fin 16384) (c : Fin 100) :
    k0_pay1 (F := Ideal) x0 x1 x2 (ix2 r c) = (∑ k : Fin 100, x0 (ix2 r k) * x1 (ix2 k c)) + x2 (ix2 (0 : Fin 1) c) := by
  unfold k0_pay1
  rw [addf_apply, broadcastTo_1b_ab_apply]
  refine congrArg₂ (· + ·) ?_ ?_
  · refine (Cert.RowOps.matmul_zero_apply plain none _ _ r c).trans ?_
    refine Finset.sum_congr rfl fun k _ => ?_
    rw [truncf_apply, truncf_apply, shapeCast_self, shapeCast_self]
  · rw [shapeCast_self]

end Cert.KernelBlock

end
-- ==== Proof.KernelArray.lean ====
/-
  From the kernel's blocks to its whole output array.

  The grid has 16 points; point t reads rows 16384·t … 16384·t + 16383 of the [262144, 100] array of rows, the whole
  folded weight and the whole folded bias row, and writes the same rows of the output.  Each written block is the
  restriction to those rows of one function of the three input arrays,

      A(n, e) = Σ_k X(n, k) · M(k, e) + C(0, e),

  and the 16 blocks tile the output, so after the last write-back the output array is A.
-/
import proofs.«112103_j19963007991948_2_alg».proof.Proof.Gen.KernelIdeal.Frame
import proofs.«112103_j19963007991948_2_alg».proof.Proof.KernelBlock
import Idealize.ShloMosaic.Lib.Pipeline.Value

noncomputable section

namespace Cert.KernelArray

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Row n of X times M, plus the one row of C, at column e. -/
def affineAt (X : FVec Ideal S262144x100 .f32) (M : FVec Ideal S100x100 .f32) (C : FVec Ideal S1x100 .f32)
    (n : Fin 262144) (e : Fin 100) : EReal :=
  (∑ k : Fin 100, X (ix2 n k) * M (ix2 k e)) + C (ix2 (0 : Fin 1) e)

/-- The same as an array over [262144, 100]. -/
def affine (X : FVec Ideal S262144x100 .f32) (M : FVec Ideal S100x100 .f32) (C : FVec Ideal S1x100 .f32) :
    FVec Ideal S262144x100 .f32 :=
  fun i => affineAt X M C (i 0) (i 1)

theorem hz : (![0, 0] : Fin 2 → Nat) = fun _ => 0 := funext fun a => by fin_cases a <;> rfl

/-- The block indices of the four windows at every grid point: the rows and the output move with the point, the weight
    and the bias stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the rows' block at point t is row 16384·t + p of the array of rows. -/
theorem rows_block (c : Dev nD) (t : Fin cfg0.N) (p : Fin 16384) (k : Fin 100) (n : Fin 262144)
    (hn : n.val = t.val * 16384 + p.val) :
    (iblk m c 0 t : Vec Ideal S16384x100 .f32) (ix2 p k) = (V m c main_call0_v0 : FVec Ideal S262144x100 .f32) (ix2 n k) := by
  obtain ⟨e0, e1, -⟩ := block_indices t
  unfold iblk
  rw [View.read_apply]
  show V m c main_call0_v0 _ = V m c main_call0_v0 _
  refine congrArg _ (funext fun a => Fin.ext ?_)
  match a with
  | ⟨0, _⟩ => show win0_0.index t 0 * 16384 + 1 * p.val = n.val; rw [e0, hn]; omega
  | ⟨1, _⟩ => show win0_0.index t 1 * 100 + 1 * k.val = k.val; rw [e1]; omega

/-- The weight's block at every point is the whole folded weight. -/
theorem weight_block (c : Dev nD) (t : Fin cfg0.N) (k e : Fin 100) :
    (iblk m c 1 t : Vec Ideal S100x100 .f32) (ix2 k e) = (V m c main_call0_v2 : FVec Ideal S100x100 .f32) (ix2 k e) := by
  obtain ⟨-, -, e2, e3, -⟩ := block_indices t
  unfold iblk
  rw [View.read_apply]
  show V m c main_call0_v2 _ = V m c main_call0_v2 _
  refine congrArg _ (funext fun a => Fin.ext ?_)
  match a with
  | ⟨0, _⟩ => show win0_1.index t 0 * 100 + 1 * k.val = k.val; rw [e2]; omega
  | ⟨1, _⟩ => show win0_1.index t 1 * 100 + 1 * e.val = e.val; rw [e3]; omega

/-- The bias's block at every point is the whole folded bias row. -/
theorem bias_block (c : Dev nD) (t : Fin cfg0.N) (e : Fin 100) :
    (iblk m c 2 t : Vec Ideal S1x100 .f32) (ix2 (0 : Fin 1) e) = (V m c main_call0_v4 : FVec Ideal S1x100 .f32) (ix2 (0 : Fin 1) e) := by
  obtain ⟨-, -, -, -, e4, e5, -⟩ := block_indices t
  unfold iblk
  rw [View.read_apply]
  show V m c main_call0_v4 _ = V m c main_call0_v4 _
  refine congrArg _ (funext fun a => Fin.ext ?_)
  match a with
  | ⟨0, _⟩ => show win0_2.index t 0 * 1 + 1 * 0 = 0; rw [e4]
  | ⟨1, _⟩ => show win0_2.index t 1 * 100 + 1 * e.val = e.val; rw [e5]; omega

/-- What point t writes back is rows 16384·t … of A of the three input arrays as the region finds them. -/
theorem flushed_eq (c : Dev nD) (t : Fin cfg0.N) :
    (dats m 0 c).flushed 3 t = ((cfg0.win 3).blk t).view.read (Elt Ideal)
      (affine (V m c main_call0_v0) (V m c main_call0_v2) (V m c main_call0_v4)) := by
  show (cfg0.win 3).cut (grid0.coords t) ((dats m 0 c).after 3 t) = _
  rw [after0_3]
  unfold out0_3
  rw [View.canon_unit_zero hz]
  simp only [View.ld_unit_zero (S := S16384x100) hz, View.ld_unit_zero (S := S100x100) hz, View.ld_unit_zero (S := S1x100) hz]
  obtain ⟨-, -, -, -, -, -, e6, e7⟩ := block_indices t
  have hN : cfg0.N = 16 := N_0
  refine funext fun (j : S16384x100.Idx) => ?_
  obtain ⟨p, q, rfl⟩ : ∃ (p : Fin 16384) (q : Fin 100), j = ix2 p q := ⟨j 0, j 1, eq_ix2 j⟩
  have hp : t.val * 16384 + p.val < 262144 := by have := t.isLt; have := p.isLt; omega
  have hemb : ((cfg0.win 3).blk t).view.emb (ix2 p q) = (ix2 (⟨t.val * 16384 + p.val, hp⟩ : Fin 262144) q : S262144x100.Idx) := by
    refine funext fun a => Fin.ext ?_
    match a with
    | ⟨0, _⟩ => show win0_3.index t 0 * 16384 + 1 * p.val = t.val * 16384 + p.val; rw [e6]; omega
    | ⟨1, _⟩ => show win0_3.index t 1 * 100 + 1 * q.val = q.val; rw [e7]; omega
  show k0_pay1 (F := Ideal) (iblk m c 0 t) (iblk m c 1 t) (iblk m c 2 t) (ix2 p q)
    = affine (V m c main_call0_v0) (V m c main_call0_v2) (V m c main_call0_v4) (((cfg0.win 3).blk t).view.emb (ix2 p q))
  rw [hemb]
  refine (Cert.KernelBlock.stored_apply (iblk m c 0 t) (iblk m c 1 t) (iblk m c 2 t) p q).trans ?_
  show _ = affineAt (V m c main_call0_v0) (V m c main_call0_v2) (V m c main_call0_v4) ⟨t.val * 16384 + p.val, hp⟩ q
  unfold affineAt
  refine congrArg₂ (· + ·) (Finset.sum_congr rfl fun k _ => ?_) (bias_block m c t q)
  rw [rows_block m c t p k ⟨t.val * 16384 + p.val, hp⟩ rfl, weight_block m c t k q]

/-- An index of the output array is in point t's block iff each coordinate is in the block's range on its axis. -/
theorem mem_blk (t : Fin cfg0.N) (i : S262144x100.Idx) :
    i ∈ ((cfg0.win 3).blk t).view.set ↔ ∀ a : Fin 2, win0_3.index t a * S16384x100.size a ≤ (i a).val
      ∧ (i a).val < win0_3.index t a * S16384x100.size a + S16384x100.size a := by
  show i ∈ ((View.whole main_call0_v5).slice (win0_3.rect t)).set ↔ _
  rw [View.set_slice_whole, Rect.mem_set_unit]
  exact Iff.rfl

/-- Row n of the output lies in the block of point n / 16384, which is written back. -/
theorem cover (i : S262144x100.Idx) :
    ∃ t : Fin cfg0.N, (cfg0.win 3).flush t = true ∧ i ∈ ((cfg0.win 3).blk t).view.set := by
  have hi0 : (i 0).val < 262144 := (i 0).isLt
  have hi1 : (i 1).val < 100 := (i 1).isLt
  have hN : cfg0.N = 16 := N_0
  have ht : (i 0).val / 16384 < cfg0.N := by rw [hN]; omega
  obtain ⟨-, -, -, -, -, -, e6, e7⟩ := block_indices ⟨(i 0).val / 16384, ht⟩
  refine ⟨⟨(i 0).val / 16384, ht⟩, flush0_3 _, ?_⟩
  rw [mem_blk]
  intro a
  match a with
  | ⟨0, _⟩ =>
    show win0_3.index ⟨(i 0).val / 16384, ht⟩ 0 * 16384 ≤ (i 0).val
      ∧ (i 0).val < win0_3.index ⟨(i 0).val / 16384, ht⟩ 0 * 16384 + 16384
    rw [e6]; show (i 0).val / 16384 * 16384 ≤ (i 0).val ∧ (i 0).val < (i 0).val / 16384 * 16384 + 16384; omega
  | ⟨1, _⟩ =>
    show win0_3.index ⟨(i 0).val / 16384, ht⟩ 1 * 100 ≤ (i 1).val
      ∧ (i 1).val < win0_3.index ⟨(i 0).val / 16384, ht⟩ 1 * 100 + 100
    rw [e7]; omega

/-- After the last write-back the output array is A of the three input arrays. -/
theorem final (c : Dev nD) :
    (dats m 0 c).arrAt 3 cfg0.N = affine (V m c main_call0_v0) (V m c main_call0_v2) (V m c main_call0_v4) :=
  (dats m 0 c).arrAt_eq_of_cover 3 _ (fun t _ => flushed_eq m c t) cover

end Cert.KernelArray

end
-- ==== Proof.KernelEntry.lean ====
/-
  What the region's three input arrays hold when it is entered.

  Before the region the program views x as [262144, 100] rows, folds the weight, M = Wᵀ·S (the transpose of W contracted
  with S), and folds the bias, C = b·S with b viewed as one [1, 100] row.  Each of these buffers is written once, by one
  host operation, so its contents at the region's entry are that operation's function of the argument arrays.
-/
import proofs.«112103_j19963007991948_2_alg».proof.Proof.Gen.KernelIdeal.Frame
import Idealize.ShloMosaic.Lib.StableHlo.Run
import Idealize.ShloMosaic.Lib.ValueIdx
import Idealize.ShloMosaic.PureOps.Ideal

noncomputable section

namespace Cert.KernelEntry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The four argument arrays on core c, at their tensor types. -/
abbrev argX (c : Dev nD) : FVec Ideal S4096x64x1x100 .f32 := m ((c : Thread nD τ).loc main_arg0)
abbrev argW (c : Dev nD) : FVec Ideal S100x100 .f32 := m ((c : Thread nD τ).loc main_arg1)
abbrev argB (c : Dev nD) : FVec Ideal S100 .f32 := m ((c : Thread nD τ).loc main_arg2)
abbrev argS (c : Dev nD) : FVec Ideal S100x100 .f32 := m ((c : Thread nD τ).loc main_arg3)

/-- The array of rows is x viewed as [262144, 100]. -/
theorem entry_rows (c : Dev nD) :
    (V m c main_call0_v0 : FVec Ideal S262144x100 .f32)
      = shapeCast S262144x100 (argX m c) shapeCasts_S4096x64x1x100_S262144x100 := by
  show StableHlo.after hostOps0 (fun b => m (c, b)) (Proc.devRef .tc main_call0_v0) = _
  after_results
  rfl

/-- The folded weight is the transpose of W contracted with S. -/
theorem entry_weight (c : Dev nD) :
    (V m c main_call0_v2 : FVec Ideal S100x100 .f32)
      = Host.dotGeneral (F := Ideal) dot_S100x100_S100x100_S100x100_1_0_0_1_n_n none
          (transpose S100x100 [1, 0] (argW m c) transposes_S100x100_S100x100_1_0) (argS m c) := by
  show StableHlo.after hostOps0 (fun b => m (c, b)) (Proc.devRef .tc main_call0_v2) = _
  after_results
  rfl

/-- The folded bias is b, viewed as one row, contracted with S. -/
theorem entry_bias (c : Dev nD) :
    (V m c main_call0_v4 : FVec Ideal S1x100 .f32)
      = Host.dotGeneral (F := Ideal) dot_S1x100_S100x100_S1x100_1_0_0_1_n_n none
          (shapeCast S1x100 (argB m c) shapeCasts_S100_S1x100) (argS m c) := by
  show StableHlo.after hostOps0 (fun b => m (c, b)) (Proc.devRef .tc main_call0_v4) = _
  after_results
  rfl

end Cert.KernelEntry

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«112103_j19963007991948_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.KernelValue.lean ====
/-
  The kernel's result as a function of its four arguments.

  After the region the program views the [262144, 100] output as [4096, 64, 1, 100].  Row n = 64·p + q (+ u, with u = 0)
  of the output is row (p, q, u) of x times the folded weight plus the folded bias, so the result at (p, q, u, e) is
  Σ_k x(p, q, u, k) · (Σ_d W(d, k) · S(d, e)) + Σ_d b(d) · S(d, e): the folded arrangement.
-/
import proofs.«112103_j19963007991948_2_alg».proof.Proof.KernelArray
import proofs.«112103_j19963007991948_2_alg».proof.Proof.KernelEntry
import proofs.«112103_j19963007991948_2_alg».proof.Proof.LibDense
import proofs.«112103_j19963007991948_2_alg».proof.Proof.AffineFold
import Idealize.ShloMosaic.Lib.StableHlo.Run

noncomputable section

namespace Cert.KernelValue

open Idealize.ShloMosaic Idealize.ShloMosaic.TcCoe Idealize.ShloMosaic.ValueIdx Idealize.SL.Sem
open Cert.KernelIdeal Cert.KernelIdeal.Gen Cert.KernelArray Cert.KernelEntry

variable (m : (ℓ : Loc nD τ sig) → Buf (Elt Ideal) ℓ) (ρ : Dev nD → PrngReg)

theorem plainW : Cert.RowOps.IsPlain dot_S100x100_S100x100_S100x100_1_0_0_1_n_n := ⟨rfl, rfl, rfl, rfl, rfl, rfl⟩
theorem plainB : Cert.RowOps.IsPlain dot_S1x100_S100x100_S1x100_1_0_0_1_n_n := ⟨rfl, rfl, rfl, rfl, rfl, rfl⟩

/-- The output array built from x viewed as rows, the folded weight and the folded bias, viewed back as
    [4096, 64, 1, 100], is the folded arrangement of the four arguments. -/
theorem view_affine_eq_folded (x : FVec Ideal S4096x64x1x100 .f32) (W S : FVec Ideal S100x100 .f32) (b : FVec Ideal S100 .f32) :
    shapeCast S4096x64x1x100
      (affine (shapeCast S262144x100 x shapeCasts_S4096x64x1x100_S262144x100)
        (Host.dotGeneral (F := Ideal) dot_S100x100_S100x100_S100x100_1_0_0_1_n_n none
          (transpose S100x100 [1, 0] W transposes_S100x100_S100x100_1_0) S)
        (Host.dotGeneral (F := Ideal) dot_S1x100_S100x100_S1x100_1_0_0_1_n_n none
          (shapeCast S1x100 b shapeCasts_S100_S1x100) S))
      shapeCasts_S262144x100_S4096x64x1x100
    = Cert.AffineFold.folded x W b S := by
  funext i
  obtain ⟨p, q, u, e, rfl⟩ : ∃ (p : Fin 4096) (q : Fin 64) (u : Fin 1) (e : Fin 100), i = ix4 p q u e :=
    ⟨i 0, i 1, i 2, i 3, eq_ix4 i⟩
  have hn : (p.val * 64 + q.val) * 1 + u.val < 262144 := by omega
  rw [shapeCast_apply _ _ (ix4 p q u e) (ix2 (⟨(p.val * 64 + q.val) * 1 + u.val, hn⟩ : Fin 262144) e) (by
    rw [Shape.rowMajor_val_two, Shape.rowMajor_val_four]; rfl)]
  show affineAt _ _ _ ⟨_, hn⟩ e = Cert.AffineFold.foldedAt x W b S p q u e
  unfold affineAt Cert.AffineFold.foldedAt
  refine congrArg₂ (· + ·) (Finset.sum_congr rfl fun k _ => congrArg₂ (· * ·) ?_ ?_) ?_
  · exact shapeCast_apply x _ _ (ix4 p q u k) (by rw [Shape.rowMajor_val_two, Shape.rowMajor_val_four]; rfl)
  · refine (Cert.Dense.hostDot_apply plainW none .single _ S k e).trans ?_
    unfold Cert.AffineFold.foldedWeight
    exact Finset.sum_congr rfl fun d _ => congrArg (· * _) (Cert.RowOps.swap_apply W _ k d)
  · refine (Cert.Dense.hostDot_apply plainB none .single _ S (0 : Fin 1) e).trans ?_
    unfold Cert.AffineFold.foldedBias
    exact Finset.sum_congr rfl fun d _ => congrArg (· * _) (shapeCast_apply b _ (ix2 (0 : Fin 1) d) (ix1 d) (by
      rw [Shape.rowMajor_val_one, Shape.rowMajor_val_two]; show d.val = 0 * 100 + d.val; omega))

/-- The program's result buffer after the lines that follow the region: the output array viewed as [4096, 64, 1, 100]. -/
theorem tail_result (c : Dev nD) :
    (Pipeline.afterTail₀ cfgs (dats m) 0 (V0 m) [hostOps1] c main_v0 : FVec Ideal S4096x64x1x100 .f32)
      = shapeCast S4096x64x1x100 (affine (V m c main_call0_v0) (V m c main_call0_v2) (V m c main_call0_v4))
          shapeCasts_S262144x100_S4096x64x1x100 := by
  unfold Pipeline.afterTail₀
  show StableHlo.after hostOps1 _ (Proc.devRef .tc main_v0) = _
  after_results
  have hw := (Pipeline.withArrays_arr spec0 launch0.win.arr_inj c (V0 m c) (fun w => (dats m 0 c).arrAt w cfg0.N) 3).trans
    (final m c)
  exact Eq.trans rfl (congrArg (fun A => shapeCast S4096x64x1x100 A shapeCasts_S262144x100_S4096x64x1x100) hw)

/-- The result as the folded arrangement of the four argument arrays. -/
theorem result_eq_folded (c : Dev nD) :
    shapeCast S4096x64x1x100 (affine (V m c main_call0_v0) (V m c main_call0_v2) (V m c main_call0_v4))
        shapeCasts_S262144x100_S4096x64x1x100
      = Cert.AffineFold.folded (argX m c) (argW m c) (argB m c) (argS m c) := by
  rw [entry_rows, entry_weight, entry_bias]
  exact view_affine_eq_folded (argX m c) (argW m c) (argS m c) (argB m c)

/-- Every weakly fair execution of the idealized kernel terminates with its result at the folded arrangement of its
    arguments and the arguments unchanged. -/
theorem run : θ_run defs (onTc (τ := τ) (main (F := Ideal))) ⟨m, fun _ => 0, ρ⟩ fun r => ∀ c : Dev nD,
      r.2.mem ((c.tc : Thread nD τ).loc main_v0) = Cert.AffineFold.folded (argX m c) (argW m c) (argB m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans
        ((tail_result m c).trans (result_eq_folded m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelValue

end
-- ==== Proof.lean ====
/-
  The certificate's claims.

  The kernel folds two chained linear maps into one affine map before it streams the rows: with M = Wᵀ·S and c = b·S,
  every row x is sent to x·M + c, where the reference computes (x·Wᵀ + b)·S.  On the extended reals the two agree when
  every entry of x, W, b and S is a real, which is what the precondition says; then multiplying out and exchanging the
  two sums is legitimate (Proof/AffineFold.lean).  The kernel's side is read off its run block by block
  (Proof/KernelBlock.lean, Proof/KernelArray.lean, Proof/KernelEntry.lean, Proof/KernelValue.lean), the reference's off
  its five operations (Proof/RefSide.lean), the precondition index by index (Proof/FiniteEntries.lean).  Rounding to a
  narrower format on the way into the kernel's product is the identity on the extended reals, and no operation was
  rewritten when the kernel was idealized.
-/
import proofs.«112103_j19963007991948_2_alg».proof.Defs
import proofs.«112103_j19963007991948_2_alg».proof.Proof.Gen.Kernel
import proofs.«112103_j19963007991948_2_alg».proof.Proof.Gen.Kernel.Skeleton
import proofs.«112103_j19963007991948_2_alg».proof.Proof.Gen.Kernel.Launch
import proofs.«112103_j19963007991948_2_alg».proof.Proof.Gen.Kernel.Points
import proofs.«112103_j19963007991948_2_alg».proof.Proof.Gen.Kernel.Frame
import proofs.«112103_j19963007991948_2_alg».proof.Proof.Gen.KernelIdeal
import proofs.«112103_j19963007991948_2_alg».proof.Proof.Gen.KernelIdeal.Skeleton
import proofs.«112103_j19963007991948_2_alg».proof.Proof.Gen.KernelIdeal.Launch
import proofs.«112103_j19963007991948_2_alg».proof.Proof.Gen.KernelIdeal.Points
import proofs.«112103_j19963007991948_2_alg».proof.Proof.Gen.KernelIdeal.Frame
import proofs.«112103_j19963007991948_2_alg».proof.Proof.Gen.ReferenceIdeal
import proofs.«112103_j19963007991948_2_alg».proof.Proof.Gen.ReferenceIdeal.Run
import proofs.«112103_j19963007991948_2_alg».proof.Proof.Gen.ReferenceIdeal.Read
import proofs.«112103_j19963007991948_2_alg».proof.Proof.Gen.Pre_finite_inputs
import proofs.«112103_j19963007991948_2_alg».proof.Proof.AffineFold
import proofs.«112103_j19963007991948_2_alg».proof.Proof.FiniteEntries
import proofs.«112103_j19963007991948_2_alg».proof.Proof.RefSide
import proofs.«112103_j19963007991948_2_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- The kernel's result is the folded arrangement of its arguments and the reference's the chained arrangement of the
    same arguments; under the precondition every entry is a real, and the two arrangements agree. -/
theorem algebraic : Cert.algebraic_KernelIdeal_ReferenceIdeal := by
  intro m ρ m' ρ' hpre hagree
  refine ⟨fun c => Cert.AffineFold.folded (Cert.KernelEntry.argX m c) (Cert.KernelEntry.argW m c)
    (Cert.KernelEntry.argB m c) (Cert.KernelEntry.argS m c), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefSide.result_eq_chained, (hagree c).1, (hagree c).2.1,
    (hagree c).2.2.1, (hagree c).2.2.2]
  obtain ⟨hx, hW, hb, hS⟩ := Cert.FiniteEntries.reals_of_pre _ _ _ _ (hpre c)
  exact Cert.AffineFold.chained_eq_folded _ _ _ _ hx hW hb hS

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
